-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x5 : Shape := ⟨2, ![4000000, 5]⟩
abbrev S_ : Shape := ⟨0, ![]⟩

class Facts : Prop where
  bcast_S_S4000000x5 : S_.BroadcastsInDim S4000000x5 (![] : Fin 0 → Fin S4000000x5.rank)
  reducesTo_S4000000x5_S_d0_1 : S4000000x5.ReducesTo [0, 1] S_
  h_S_ : 0 < S_.numel

variable [Facts]

def fn {F : FTy → Type} [FloatOps F] (main_arg0 : FVec F S4000000x5 .f32) (main_arg1 : FVec F S4000000x5 .f32) : IVec S_ 1 :=
  let main_v0 : FVec F S4000000x5 .f32 := Host.absf main_arg0
  let main_cst : FVec F S_ .f32 := constant S_ .f32 0x7F800000#32
  let main_v1 : FVec F S4000000x5 .f32 := broadcastInDim S4000000x5 ![] bcast_S_S4000000x5 main_cst
  let main_v2 : IVec S4000000x5 1 := cmpf .olt main_v0 main_v1
  let main_c : IVec S_ 1 := constantI S_ 1 1#1
  let main_v3 : IVec S_ 1 := (fun x v => Host.reduce IntOp.andi x v reducesTo_S4000000x5_S_d0_1 h_S_) main_v2 main_c
  let main_v4 : FVec F S4000000x5 .f32 := Host.absf main_arg1
  let main_cst_0 : FVec F S_ .f32 := constant S_ .f32 0x7F800000#32
  let main_v5 : FVec F S4000000x5 .f32 := broadcastInDim S4000000x5 ![] bcast_S_S4000000x5 main_cst_0
  let main_v6 : IVec S4000000x5 1 := cmpf .olt main_v4 main_v5
  let main_c_1 : IVec S_ 1 := constantI S_ 1 1#1
  let main_v7 : IVec S_ 1 := (fun x v => Host.reduce IntOp.andi x v reducesTo_S4000000x5_S_d0_1 h_S_) main_v6 main_c_1
  let main_v8 : IVec S_ 1 := andi main_v3 main_v7
  main_v8
-- ==== Kernel.lean ====
abbrev S4000000x5 : Shape := ⟨2, ![4000000, 5]⟩
abbrev S5x4000000 : Shape := ⟨2, ![5, 4000000]⟩
abbrev S200x128 : Shape := ⟨2, ![200, 128]⟩
abbrev S5x160000 : Shape := ⟨2, ![5, 160000]⟩
abbrev S8x128 : Shape := ⟨2, ![8, 128]⟩
abbrev S1x160000 : Shape := ⟨2, ![1, 160000]⟩
abbrev S4x160000 : Shape := ⟨2, ![4, 160000]⟩
abbrev S1 : Shape := ⟨1, ![1]⟩
abbrev S1x1 : Shape := ⟨2, ![1, 1]⟩
abbrev S1x2 : Shape := ⟨2, ![1, 2]⟩
abbrev S1x126 : Shape := ⟨2, ![1, 126]⟩
abbrev S1x128 : Shape := ⟨2, ![1, 128]⟩
abbrev S7x128 : Shape := ⟨2, ![7, 128]⟩
abbrev S25x8x128 : Shape := ⟨3, ![25, 8, 128]⟩
abbrev S25x1x2 : Shape := ⟨3, ![25, 1, 2]⟩
abbrev S25x2 : Shape := ⟨2, ![25, 2]⟩
abbrev S_ : Shape := ⟨0, ![]⟩
abbrev S2 : Shape := ⟨1, ![2]⟩

abbrev nBuf : Space → Nat
  | .hbm => 21
  | .vmem => 6
  | .smem => 0
  | _ => 0

abbrev bufTy : (tb : Table) → Fin (tcTables nBuf tb) → BufTy
  | .hbm, ⟨0, _⟩ => ⟨S4000000x5, .f32⟩
  | .hbm, ⟨1, _⟩ => ⟨S4000000x5, .f32⟩
  | .hbm, ⟨2, _⟩ => ⟨S5x4000000, .f32⟩
  | .hbm, ⟨3, _⟩ => ⟨S5x4000000, .f32⟩
  | .hbm, ⟨4, _⟩ => ⟨S200x128, .f32⟩
  | .hbm, ⟨5, _⟩ => ⟨S25x8x128, .f32⟩
  | .hbm, ⟨6, _⟩ => ⟨S25x1x2, .f32⟩
  | .hbm, ⟨7, _⟩ => ⟨S25x2, .f32⟩
  | .hbm, ⟨8, _⟩ => ⟨S_, .f32⟩
  | .hbm, ⟨9, _⟩ => ⟨S2, .f32⟩
  | .hbm, ⟨10, _⟩ => ⟨S1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S5x160000, .f32⟩
  | .local _ .vmem, ⟨1, _⟩ => ⟨S5x160000, .f32⟩
  | .local _ .vmem, ⟨2, _⟩ => ⟨S5x160000, .f32⟩
  | .local _ .vmem, ⟨3, _⟩ => ⟨S5x160000, .f32⟩
  | .local _ .vmem, ⟨4, _⟩ => ⟨S8x128, .f32⟩
  | .local _ .vmem, ⟨5, _⟩ => ⟨S8x128, .f32⟩
  | _, _ => ⟨S4000000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5x160000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x160000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S4000000x5_S5x4000000_1_0 : S4000000x5.Transposes [1, 0] S5x4000000
  inb_S5x160000_S1x160000_0_0 : ∀ a, (![0, 0] : Fin 2 → Nat) a + S1x160000.size a ≤ S5x160000.size a
  h_S1x160000 : 0 < S1x160000.numel
  shapeCasts_S1x160000_S1x160000 : S1x160000.ShapeCasts S1x160000
  inb_S5x160000_S4x160000_1_0 : ∀ a, (![1, 0] : Fin 2 → Nat) a + S4x160000.size a ≤ S5x160000.size a
  h_S4x160000 : 0 < S4x160000.numel
  shapeCasts_S4x160000_S4x160000 : S4x160000.ShapeCasts S4x160000
  slices_S4x160000_o0_0_S1x160000 : S4x160000.Slices ![0, 0] S1x160000
  slices_S4x160000_o1_0_S1x160000 : S4x160000.Slices ![1, 0] S1x160000
  slices_S4x160000_o2_0_S1x160000 : S4x160000.Slices ![2, 0] S1x160000
  slices_S4x160000_o3_0_S1x160000 : S4x160000.Slices ![3, 0] S1x160000
  reduces_S1x160000_S1 : S1x160000.Reduces [1] S1
  shapeCasts_S1_S1x1 : S1.ShapeCasts S1x1
  concatenates_S1x1_S1x1_S1x2_d1 : Shape.Concatenates [S1x1, S1x1] S1x2 1
  concatenates_S1x2_S1x126_S1x128_d1 : Shape.Concatenates [S1x2, S1x126] S1x128 1
  concatenates_S1x128_S7x128_S8x128_d0 : Shape.Concatenates [S1x128, S7x128] S8x128 0
  inb_S8x128_S8x128_0_0 : ∀ a, (![0, 0] : Fin 2 → Nat) a + S8x128.size a ≤ S8x128.size a
  h_S8x128 : 0 < S8x128.numel
  shapeCasts_S200x128_S25x8x128 : S200x128.ShapeCasts S25x8x128
  slices_S25x8x128_S25x1x2_0_0_0 : S25x8x128.Slices ![0, 0, 0] S25x1x2
  shapeCasts_S25x1x2_S25x2 : S25x1x2.ShapeCasts S25x2
  reducesTo_S25x2_S2_d0 : S25x2.ReducesTo [0] S2
  h_S_ : 0 < S_.numel
  slices_S2_S1_0 : S2.Slices ![0] S1
  shapeCasts_S1_S_ : S1.ShapeCasts S_
  slices_S2_S1_1 : S2.Slices ![1] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x160000.size a ≤ S5x4000000.size a
  hwx0_0 : ∀ i : grid0.Coords, EltTy.bits .f32 = 32 ∨ (Rect.block (s := S5x4000000) S5x160000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5x160000.size a ≤ S5x4000000.size a
  hwx0_1 : ∀ i : grid0.Coords, EltTy.bits .f32 = 32 ∨ (Rect.block (s := S5x4000000) S5x160000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S200x128.size a
  hwx0_2 : ∀ i : grid0.Coords, EltTy.bits .f32 = 32 ∨ (Rect.block (s := S200x128) S8x128.size (cc0_transform_2 i) (hinb0_2 i)).WholeWords (EltTy.packing .f32)

variable [Facts₀]

abbrev win0_0 : Pipeline.Window sig grid0 :=
  Pipeline.Window.ofSpec (Memref.whole main_v0) S5x160000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5x160000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x5 : Shape := ⟨2, ![4000000, 5]⟩
abbrev S4000000x4 : Shape := ⟨2, ![4000000, 4]⟩
abbrev S_ : Shape := ⟨0, ![]⟩
abbrev S4000000x1 : Shape := ⟨2, ![4000000, 1]⟩
abbrev S4000000 : Shape := ⟨1, ![4000000]⟩

abbrev nBuf : Space → Nat
  | .hbm => 95
  | .vmem => 0
  | .smem => 0
  | _ => 0

abbrev bufTy : (tb : Table) → Fin (tcTables nBuf tb) → BufTy
  | .hbm, ⟨0, _⟩ => ⟨S4000000x5, .f32⟩
  | .hbm, ⟨1, _⟩ => ⟨S4000000x5, .f32⟩
  | .hbm, ⟨2, _⟩ => ⟨S4000000x4, .f32⟩
  | .hbm, ⟨3, _⟩ => ⟨S4000000x4, .f32⟩
  | .hbm, ⟨4, _⟩ => ⟨S4000000x4, .f32⟩
  | .hbm, ⟨5, _⟩ => ⟨S_, .f32⟩
  | .hbm, ⟨6, _⟩ => ⟨S4000000x4, .f32⟩
  | .hbm, ⟨7, _⟩ => ⟨S4000000x4, .f32⟩
  | .hbm, ⟨8, _⟩ => ⟨S_, .f32⟩
  | .hbm, ⟨9, _⟩ => ⟨S4000000x4, .f32⟩
  | .hbm, ⟨10, _⟩ => ⟨S4000000x4, .f32⟩
  | .hbm, ⟨11, _⟩ => ⟨S4000000x4, .f32⟩
  | .hbm, ⟨12, _⟩ => ⟨S4000000x1, .f32⟩
  | .hbm, ⟨13, _⟩ => ⟨S4000000, .f32⟩
  | .hbm, ⟨14, _⟩ => ⟨S4000000x1, .f32⟩
  | .hbm, ⟨15, _⟩ => ⟨S4000000, .f32⟩
  | .hbm, ⟨16, _⟩ => ⟨S4000000x1, .f32⟩
  | .hbm, ⟨17, _⟩ => ⟨S4000000, .f32⟩
  | .hbm, ⟨18, _⟩ => ⟨S4000000x1, .f32⟩
  | .hbm, ⟨19, _⟩ => ⟨S4000000, .f32⟩
  | .hbm, ⟨20, _⟩ => ⟨S4000000x1, .f32⟩
  | .hbm, ⟨21, _⟩ => ⟨S4000000, .f32⟩
  | .hbm, ⟨22, _⟩ => ⟨S4000000x1, .f32⟩
  | .hbm, ⟨23, _⟩ => ⟨S4000000, .f32⟩
  | .hbm, ⟨24, _⟩ => ⟨S4000000x1, .f32⟩
  | .hbm, ⟨25, _⟩ => ⟨S4000000, .f32⟩
  | .hbm, ⟨26, _⟩ => ⟨S4000000x1, .f32⟩
  | .hbm, ⟨27, _⟩ => ⟨S4000000, .f32⟩
  | .hbm, ⟨28, _⟩ => ⟨S4000000, .f32⟩
  | .hbm, ⟨29, _⟩ => ⟨S4000000, .f32⟩
  | .hbm, ⟨30, _⟩ => ⟨S4000000, .f32⟩
  | .hbm, ⟨31, _⟩ => ⟨S4000000, .f32⟩
  | .hbm, ⟨32, _⟩ => ⟨S4000000, .f32⟩
  | .hbm, ⟨33, _⟩ => ⟨S4000000, .f32⟩
  | .hbm, ⟨34, _⟩ => ⟨S4000000, .f32⟩
  | .hbm, ⟨35, _⟩ => ⟨S4000000, .f32⟩
  | .hbm, ⟨36, _⟩ => ⟨S4000000, .f32⟩
  | .hbm, ⟨37, _⟩ => ⟨S4000000, .f32⟩
  | .hbm, ⟨38, _⟩ => ⟨S4000000, .f32⟩
  | .hbm, ⟨39, _⟩ => ⟨S4000000, .f32⟩
  | .hbm, ⟨40, _⟩ => ⟨S4000000, .f32⟩
  | .hbm, ⟨41, _⟩ => ⟨S4000000, .f32⟩
  | .hbm, ⟨42, _⟩ => ⟨S4000000, .f32⟩
  | .hbm, ⟨43, _⟩ => ⟨S4000000, .f32⟩
  | .hbm, ⟨44, _⟩ => ⟨S4000000, .f32⟩
  | .hbm, ⟨45, _⟩ => ⟨S4000000, .f32⟩
  | .hbm, ⟨46, _⟩ => ⟨S4000000, .f32⟩
  | .hbm, ⟨47, _⟩ => ⟨S_, .f32⟩
  | .hbm, ⟨48, _⟩ => ⟨S4000000, .f32⟩
  | .hbm, ⟨49, _⟩ => ⟨S4000000, .i1⟩
  | .hbm, ⟨50, _⟩ => ⟨S_, .f32⟩
  | .hbm, ⟨51, _⟩ => ⟨S_, .f32⟩
  | .hbm, ⟨52, _⟩ => ⟨S4000000, .f32⟩
  | .hbm, ⟨53, _⟩ => ⟨S4000000, .f32⟩
  | .hbm, ⟨54, _⟩ => ⟨S4000000, .f32⟩
  | .hbm, ⟨55, _⟩ => ⟨S4000000, .f32⟩
  | .hbm, ⟨56, _⟩ => ⟨S4000000, .f32⟩
  | .hbm, ⟨57, _⟩ => ⟨S4000000, .f32⟩
  | .hbm, ⟨58, _⟩ => ⟨S4000000, .f32⟩
  | .hbm, ⟨59, _⟩ => ⟨S4000000, .f32⟩
  | .hbm, ⟨60, _⟩ => ⟨S4000000, .f32⟩
  | .hbm, ⟨61, _⟩ => ⟨S4000000, .f32⟩
  | .hbm, ⟨62, _⟩ => ⟨S4000000, .f32⟩
  | .hbm, ⟨63, _⟩ => ⟨S4000000, .f32⟩
  | .hbm, ⟨64, _⟩ => ⟨S4000000, .f32⟩
  | .hbm, ⟨65, _⟩ => ⟨S4000000, .f32⟩
  | .hbm, ⟨66, _⟩ => ⟨S4000000, .f32⟩
  | .hbm, ⟨67, _⟩ => ⟨S_, .f32⟩
  | .hbm, ⟨68, _⟩ => ⟨S4000000, .f32⟩
  | .hbm, ⟨69, _⟩ => ⟨S4000000, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S4000000x1, .f32⟩
  | .hbm, ⟨75, _⟩ => ⟨S4000000, .f32⟩
  | .hbm, ⟨76, _⟩ => ⟨S4000000x1, .f32⟩
  | .hbm, ⟨77, _⟩ => ⟨S4000000, .f32⟩
  | .hbm, ⟨78, _⟩ => ⟨S_, .f32⟩
  | .hbm, ⟨79, _⟩ => ⟨S4000000, .f32⟩
  | .hbm, ⟨80, _⟩ => ⟨S4000000, .f32⟩
  | .hbm, ⟨81, _⟩ => ⟨S4000000, .f32⟩
  | .hbm, ⟨82, _⟩ => ⟨S4000000, .f32⟩
  | .hbm, ⟨83, _⟩ => ⟨S4000000, .f32⟩
  | .hbm, ⟨84, _⟩ => ⟨S4000000, .f32⟩
  | .hbm, ⟨85, _⟩ => ⟨S4000000, .f32⟩
  | .hbm, ⟨86, _⟩ => ⟨S4000000, .f32⟩
  | .hbm, ⟨87, _⟩ => ⟨S4000000, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S4000000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_cst_1 : Ref sig .tc := ⟨.hbm, 47, rfl⟩
abbrev main_v43 : Ref sig .tc := ⟨.hbm, 48, rfl⟩
abbrev main_v44 : Ref sig .tc := ⟨.hbm, 49, rfl⟩
abbrev main_cst_2 : Ref sig .tc := ⟨.hbm, 50, rfl⟩
abbrev main_call0_v0 : Ref sig .tc := ⟨.hbm, 51, rfl⟩
abbrev main_call0_v1 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst_3 : Ref sig .tc := ⟨.hbm, 67, rfl⟩
abbrev main_v59 : Ref sig .tc := ⟨.hbm, 68, rfl⟩
abbrev main_v60 : Ref sig .tc := ⟨.hbm, 69, rfl⟩
abbrev main_cst_4 : Ref sig .tc := ⟨.hbm, 70, rfl⟩
abbrev main_v61 : Ref sig .tc := ⟨.hbm, 71, rfl⟩
abbrev main_cst_5 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_cst_6 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_7 : Ref sig .tc := ⟨.hbm, 88, rfl⟩
abbrev main_v76 : Ref sig .tc := ⟨.hbm, 89, rfl⟩
abbrev main_cst_8 : Ref sig .tc := ⟨.hbm, 90, rfl⟩
abbrev main_v77 : Ref sig .tc := ⟨.hbm, 91, rfl⟩
abbrev main_cst_9 : Ref sig .tc := ⟨.hbm, 92, rfl⟩
abbrev main_v78 : Ref sig .tc := ⟨.hbm, 93, rfl⟩
abbrev main_v79 : Ref sig .tc := ⟨.hbm, 94, rfl⟩

abbrev nD : Nat := 1
abbrev τ : Topo := Topo.v7x

variable {F : FTy → Type} [FloatOps F]

class Facts₀ : Prop where
  slices_S4000000x5_S4000000x4_0_1 : S4000000x5.Slices ![0, 1] S4000000x4
  bcast_S_S4000000x4 : S_.BroadcastsInDim S4000000x4 (![] : Fin 0 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  reducesTo_S4000000_S_d0 : S4000000.ReducesTo [0] S_
  h_S_ : 0 < S_.numel
  slices_S4000000x5_S4000000x1_0_0 : S4000000x5.Slices ![0, 0] S4000000x1

variable [Facts₀]

class Facts : Prop extends Facts₀ where

variable [Facts]
-- ==== Proof.BoxLossSpec.lean ====
/-
  The loss both programs compute, as one function of the two argument arrays over the extended reals.

  Each row n of the two [4000000, 5] arrays holds a logit and four box parameters (first array: the prediction, whose box
  parameters pass through the logistic function; second array: a label and a target box).  A row contributes
    * a box term   1 - (I / U - (E - U) / E),  I the intersection's area clamped at zero from below, U the union's area,
      E the area of the smallest enclosing box, the predicted corners put in order by min / max first;
    * a classification term   max l 0 - l * y + log (1 + exp (-|l|))   of its logit l and label y.
  The loss is  w * ((sum of the classification terms) / N) + (sum of the box terms) / N,  with N and w the two literals of the
  programs (4000000 and 0.2 as f32 patterns, never evaluated here: both programs carry the same words).
  Every operation is the extended reals' own (division is the ideal instance's total division), so the function is total and
  needs no finiteness.
-/
import Idealize.ShloMosaic.PureOps.Ideal
import Idealize.ShloMosaic.PureOps.Ideal.Laws
import Idealize.ShloMosaic.Lib.ValueIdx

noncomputable section

namespace Cert.BoxLoss

open Idealize.ShloMosaic Idealize.ShloMosaic.ValueIdx
open scoped BigOperators

/-- The absolute value on the extended reals. -/
def absE (x : EReal) : EReal := max x (-x)

/-- A product of two side lengths, replaced by zero when it is negative. -/
def clampNeg (x : EReal) : EReal := Scalar.select (Ideal.cmp .olt x 0) 0 x

/-- The intersection's area: the predicted box with corners (p0, p1), (p2, p3) in either order, the target box (t0, t1), (t2, t3). -/
def interArea (p0 p1 p2 p3 t0 t1 t2 t3 : EReal) : EReal :=
  clampNeg ((min (max p2 p0) t2 - max (min p2 p0) t0) * (min (max p1 p3) t3 - max (min p1 p3) t1))

/-- The area of the smallest box enclosing both. -/
def hullArea (p0 p1 p2 p3 t0 t1 t2 t3 : EReal) : EReal :=
  (max (max p2 p0) t2 - min (min p2 p0) t0) * (max (max p1 p3) t3 - min (min p1 p3) t1)

/-- The union's area: the two boxes' areas less the intersection's. -/
def unionArea (p0 p1 p2 p3 t0 t1 t2 t3 : EReal) : EReal :=
  (t2 - t0) * (t3 - t1) + absE (p2 - p0) * absE (p3 - p1) - interArea p0 p1 p2 p3 t0 t1 t2 t3

/-- One minus the generalized intersection over union of the two boxes. -/
def boxTerm (p0 p1 p2 p3 t0 t1 t2 t3 : EReal) : EReal :=
  1 - (Ideal.div (interArea p0 p1 p2 p3 t0 t1 t2 t3) (unionArea p0 p1 p2 p3 t0 t1 t2 t3)
        - Ideal.div (hullArea p0 p1 p2 p3 t0 t1 t2 t3 - unionArea p0 p1 p2 p3 t0 t1 t2 t3) (hullArea p0 p1 p2 p3 t0 t1 t2 t3))

/-- The binary cross entropy of a logit l against a label y, in its overflow-free form. -/
def bceTerm (l y : EReal) : EReal := max l 0 - l * y + Ideal.log1p (Ideal.exp (-(absE l)))

/-- The arrays' shape, rows by fields. -/
abbrev Rows : Shape := ⟨2, ![4000000, 5]⟩

/-- Row n's box term: the prediction's fields 1..4 through the logistic function against the target's fields 1..4. -/
def rowBox (A B : Rows.Idx → EReal) (n : Fin 4000000) : EReal :=
  boxTerm (Ideal.logistic (A (ix2 n (1 : Fin 5)))) (Ideal.logistic (A (ix2 n (2 : Fin 5))))
    (Ideal.logistic (A (ix2 n (3 : Fin 5)))) (Ideal.logistic (A (ix2 n (4 : Fin 5))))
    (B (ix2 n (1 : Fin 5))) (B (ix2 n (2 : Fin 5))) (B (ix2 n (3 : Fin 5))) (B (ix2 n (4 : Fin 5)))

/-- Row n's classification term: field 0 of the prediction against field 0 of the target. -/
def rowBce (A B : Rows.Idx → EReal) (n : Fin 4000000) : EReal :=
  bceTerm (A (ix2 n (0 : Fin 5))) (B (ix2 n (0 : Fin 5)))

/-- The number of rows as the programs write it (the f32 pattern of 4000000). -/
def rowCount : EReal := Ideal.ofBits .f32 0x4A742400#32
/-- The classification term's weight as the programs write it (the f32 pattern nearest 0.2). -/
def bceWeight : EReal := Ideal.ofBits .f32 0x3E4CCCCD#32

/-- The loss from the two sums. -/
def combine (sumBox sumBce : EReal) : EReal :=
  bceWeight * Ideal.div sumBce rowCount + Ideal.div sumBox rowCount

/-- The loss: the weighted mean classification term plus the mean box term. -/
def loss (A B : Rows.Idx → EReal) : EReal :=
  combine (∑ n : Fin 4000000, rowBox A B n) (∑ n : Fin 4000000, rowBce A B n)

/-- The f32 pattern of 1.0 is the extended real 1. -/
theorem ofBits_one_f32 : Ideal.ofBits .f32 0x3F800000#32 = 1 := IdealRules.sign_bit.ideal_onePat .f32

end Cert.BoxLoss

end
-- ==== Proof.KernelRow.lean ====
/-
  The kernel body's pointwise part, read at one lane k of a block.

  A block of either argument is a [5, 160000] array: row 0 the logits (labels), rows 1..4 the box parameters.  The body takes the
  logistic function of the prediction's rows 1..4, splits both four-row pieces into their rows, and computes from them, lane by
  lane, the clamped intersection area, the enclosing area and the union area of the two boxes.  Here each of those three
  [1, 160000] values is read at lane k as the specification's function of the eight entries of that lane.
-/
import proofs.«111097_j10067403341970_2_alg».proof.Proof.Gen.KernelIdeal.Skeleton
import proofs.«111097_j10067403341970_2_alg».proof.Proof.BoxLossSpec
import Idealize.ShloMosaic.Lib.Pipeline.Value
import Idealize.ShloMosaic.Lib.ValueIdx

noncomputable section

namespace Cert.KernelIdeal.Row

open Cert.KernelIdeal Cert.KernelIdeal.Gen Idealize.ShloMosaic Idealize.ShloMosaic.ValueIdx Cert.BoxLoss

variable (v2 v7 : Vec Ideal S4x160000 .f32) (k : Fin 160000)

/-- Row r of the four predicted rows after the logistic function, at lane k. -/
theorem pred0 : k0_pay6 (F := Ideal) v2 (ix2 (0 : Fin 1) k) = Ideal.logistic (v2 (ix2 (0 : Fin 4) k)) := by
  unfold k0_pay6 k0_pay3
  refine (extractStridedSlice_apply ![0, 0] _ slices_S4x160000_o0_0_S1x160000 (ix2 (0 : Fin 1) k) (ix2 (0 : Fin 4) k) (fun a => ?_)).trans ?_
  · match a with
    | ⟨0, _⟩ => rfl
    | ⟨1, _⟩ => show k.val = 0 + k.val; omega
  · show Ideal.logistic (shapeCast S4x160000 v2 shapeCasts_S4x160000_S4x160000 (ix2 (0 : Fin 4) k)) = _
    rw [shapeCast_self]

theorem pred1 : k0_pay7 (F := Ideal) v2 (ix2 (0 : Fin 1) k) = Ideal.logistic (v2 (ix2 (1 : Fin 4) k)) := by
  unfold k0_pay7 k0_pay3
  refine (extractStridedSlice_apply ![1, 0] _ slices_S4x160000_o1_0_S1x160000 (ix2 (0 : Fin 1) k) (ix2 (1 : Fin 4) k) (fun a => ?_)).trans ?_
  · match a with
    | ⟨0, _⟩ => rfl
    | ⟨1, _⟩ => show k.val = 0 + k.val; omega
  · show Ideal.logistic (shapeCast S4x160000 v2 shapeCasts_S4x160000_S4x160000 (ix2 (1 : Fin 4) k)) = _
    rw [shapeCast_self]

theorem pred2 : k0_pay8 (F := Ideal) v2 (ix2 (0 : Fin 1) k) = Ideal.logistic (v2 (ix2 (2 : Fin 4) k)) := by
  unfold k0_pay8 k0_pay3
  refine (extractStridedSlice_apply ![2, 0] _ slices_S4x160000_o2_0_S1x160000 (ix2 (0 : Fin 1) k) (ix2 (2 : Fin 4) k) (fun a => ?_)).trans ?_
  · match a with
    | ⟨0, _⟩ => rfl
    | ⟨1, _⟩ => show k.val = 0 + k.val; omega
  · show Ideal.logistic (shapeCast S4x160000 v2 shapeCasts_S4x160000_S4x160000 (ix2 (2 : Fin 4) k)) = _
    rw [shapeCast_self]

theorem pred3 : k0_pay9 (F := Ideal) v2 (ix2 (0 : Fin 1) k) = Ideal.logistic (v2 (ix2 (3 : Fin 4) k)) := by
  unfold k0_pay9 k0_pay3
  refine (extractStridedSlice_apply ![3, 0] _ slices_S4x160000_o3_0_S1x160000 (ix2 (0 : Fin 1) k) (ix2 (3 : Fin 4) k) (fun a => ?_)).trans ?_
  · match a with
    | ⟨0, _⟩ => rfl
    | ⟨1, _⟩ => show k.val = 0 + k.val; omega
  · show Ideal.logistic (shapeCast S4x160000 v2 shapeCasts_S4x160000_S4x160000 (ix2 (3 : Fin 4) k)) = _
    rw [shapeCast_self]

/-- Row r of the four target rows, at lane k. -/
theorem targ0 : k0_pay10 (F := Ideal) v7 (ix2 (0 : Fin 1) k) = v7 (ix2 (0 : Fin 4) k) := by
  unfold k0_pay10 k0_pay5
  refine (extractStridedSlice_apply ![0, 0] _ slices_S4x160000_o0_0_S1x160000 (ix2 (0 : Fin 1) k) (ix2 (0 : Fin 4) k) (fun a => ?_)).trans ?_
  · match a with
    | ⟨0, _⟩ => rfl
    | ⟨1, _⟩ => show k.val = 0 + k.val; omega
  · show shapeCast S4x160000 v7 shapeCasts_S4x160000_S4x160000 (ix2 (0 : Fin 4) k) = _
    rw [shapeCast_self]

theorem targ1 : k0_pay11 (F := Ideal) v7 (ix2 (0 : Fin 1) k) = v7 (ix2 (1 : Fin 4) k) := by
  unfold k0_pay11 k0_pay5
  refine (extractStridedSlice_apply ![1, 0] _ slices_S4x160000_o1_0_S1x160000 (ix2 (0 : Fin 1) k) (ix2 (1 : Fin 4) k) (fun a => ?_)).trans ?_
  · match a with
    | ⟨0, _⟩ => rfl
    | ⟨1, _⟩ => show k.val = 0 + k.val; omega
  · show shapeCast S4x160000 v7 shapeCasts_S4x160000_S4x160000 (ix2 (1 : Fin 4) k) = _
    rw [shapeCast_self]

theorem targ2 : k0_pay12 (F := Ideal) v7 (ix2 (0 : Fin 1) k) = v7 (ix2 (2 : Fin 4) k) := by
  unfold k0_pay12 k0_pay5
  refine (extractStridedSlice_apply ![2, 0] _ slices_S4x160000_o2_0_S1x160000 (ix2 (0 : Fin 1) k) (ix2 (2 : Fin 4) k) (fun a => ?_)).trans ?_
  · match a with
    | ⟨0, _⟩ => rfl
    | ⟨1, _⟩ => show k.val = 0 + k.val; omega
  · show shapeCast S4x160000 v7 shapeCasts_S4x160000_S4x160000 (ix2 (2 : Fin 4) k) = _
    rw [shapeCast_self]

theorem targ3 : k0_pay13 (F := Ideal) v7 (ix2 (0 : Fin 1) k) = v7 (ix2 (3 : Fin 4) k) := by
  unfold k0_pay13 k0_pay5
  refine (extractStridedSlice_apply ![3, 0] _ slices_S4x160000_o3_0_S1x160000 (ix2 (0 : Fin 1) k) (ix2 (3 : Fin 4) k) (fun a => ?_)).trans ?_
  · match a with
    | ⟨0, _⟩ => rfl
    | ⟨1, _⟩ => show k.val = 0 + k.val; omega
  · show shapeCast S4x160000 v7 shapeCasts_S4x160000_S4x160000 (ix2 (3 : Fin 4) k) = _
    rw [shapeCast_self]

/-- The eight entries of lane k the box quantities depend on. -/
abbrev P0 : EReal := Ideal.logistic (v2 (ix2 (0 : Fin 4) k))
abbrev P1 : EReal := Ideal.logistic (v2 (ix2 (1 : Fin 4) k))
abbrev P2 : EReal := Ideal.logistic (v2 (ix2 (2 : Fin 4) k))
abbrev P3 : EReal := Ideal.logistic (v2 (ix2 (3 : Fin 4) k))

/-- The clamped intersection area at lane k. -/
theorem inter_apply : k0_pay18 (F := Ideal) v2 v7 (ix2 (0 : Fin 1) k)
    = interArea (P0 v2 k) (P1 v2 k) (P2 v2 k) (P3 v2 k) (v7 (ix2 (0 : Fin 4) k)) (v7 (ix2 (1 : Fin 4) k)) (v7 (ix2 (2 : Fin 4) k)) (v7 (ix2 (3 : Fin 4) k)) := by
  show Scalar.select (Ideal.cmp .olt
        ((min (max (k0_pay8 (F := Ideal) v2 (ix2 0 k)) (k0_pay6 (F := Ideal) v2 (ix2 0 k))) (k0_pay12 (F := Ideal) v7 (ix2 0 k))
            - max (min (k0_pay8 (F := Ideal) v2 (ix2 0 k)) (k0_pay6 (F := Ideal) v2 (ix2 0 k))) (k0_pay10 (F := Ideal) v7 (ix2 0 k)))
          * (min (max (k0_pay7 (F := Ideal) v2 (ix2 0 k)) (k0_pay9 (F := Ideal) v2 (ix2 0 k))) (k0_pay13 (F := Ideal) v7 (ix2 0 k))
            - max (min (k0_pay7 (F := Ideal) v2 (ix2 0 k)) (k0_pay9 (F := Ideal) v2 (ix2 0 k))) (k0_pay11 (F := Ideal) v7 (ix2 0 k))))
        (Ideal.ofBits .f32 0x00000000#32)) (Ideal.ofBits .f32 0x00000000#32)
        ((min (max (k0_pay8 (F := Ideal) v2 (ix2 0 k)) (k0_pay6 (F := Ideal) v2 (ix2 0 k))) (k0_pay12 (F := Ideal) v7 (ix2 0 k))
            - max (min (k0_pay8 (F := Ideal) v2 (ix2 0 k)) (k0_pay6 (F := Ideal) v2 (ix2 0 k))) (k0_pay10 (F := Ideal) v7 (ix2 0 k)))
          * (min (max (k0_pay7 (F := Ideal) v2 (ix2 0 k)) (k0_pay9 (F := Ideal) v2 (ix2 0 k))) (k0_pay13 (F := Ideal) v7 (ix2 0 k))
            - max (min (k0_pay7 (F := Ideal) v2 (ix2 0 k)) (k0_pay9 (F := Ideal) v2 (ix2 0 k))) (k0_pay11 (F := Ideal) v7 (ix2 0 k)))) = _
  rw [pred0, pred1, pred2, pred3, targ0, targ1, targ2, targ3, Ideal.ofBits_zero_f32]
  rfl

/-- The enclosing box's area at lane k. -/
theorem hull_apply : k0_pay19 (F := Ideal) v2 v7 (ix2 (0 : Fin 1) k)
    = hullArea (P0 v2 k) (P1 v2 k) (P2 v2 k) (P3 v2 k) (v7 (ix2 (0 : Fin 4) k)) (v7 (ix2 (1 : Fin 4) k)) (v7 (ix2 (2 : Fin 4) k)) (v7 (ix2 (3 : Fin 4) k)) := by
  show (max (max (k0_pay8 (F := Ideal) v2 (ix2 0 k)) (k0_pay6 (F := Ideal) v2 (ix2 0 k))) (k0_pay12 (F := Ideal) v7 (ix2 0 k))
          - min (min (k0_pay8 (F := Ideal) v2 (ix2 0 k)) (k0_pay6 (F := Ideal) v2 (ix2 0 k))) (k0_pay10 (F := Ideal) v7 (ix2 0 k)))
        * (max (max (k0_pay7 (F := Ideal) v2 (ix2 0 k)) (k0_pay9 (F := Ideal) v2 (ix2 0 k))) (k0_pay13 (F := Ideal) v7 (ix2 0 k))
          - min (min (k0_pay7 (F := Ideal) v2 (ix2 0 k)) (k0_pay9 (F := Ideal) v2 (ix2 0 k))) (k0_pay11 (F := Ideal) v7 (ix2 0 k))) = _
  rw [pred0, pred1, pred2, pred3, targ0, targ1, targ2, targ3]
  rfl

/-- The union's area at lane k. -/
theorem union_apply : k0_pay20 (F := Ideal) v2 v7 (ix2 (0 : Fin 1) k)
    = unionArea (P0 v2 k) (P1 v2 k) (P2 v2 k) (P3 v2 k) (v7 (ix2 (0 : Fin 4) k)) (v7 (ix2 (1 : Fin 4) k)) (v7 (ix2 (2 : Fin 4) k)) (v7 (ix2 (3 : Fin 4) k)) := by
  show (k0_pay12 (F := Ideal) v7 (ix2 0 k) - k0_pay10 (F := Ideal) v7 (ix2 0 k)) * (k0_pay13 (F := Ideal) v7 (ix2 0 k) - k0_pay11 (F := Ideal) v7 (ix2 0 k))
        + absE (k0_pay8 (F := Ideal) v2 (ix2 0 k) - k0_pay6 (F := Ideal) v2 (ix2 0 k)) * absE (k0_pay9 (F := Ideal) v2 (ix2 0 k) - k0_pay7 (F := Ideal) v2 (ix2 0 k))
        - k0_pay18 (F := Ideal) v2 v7 (ix2 0 k) = _
  rw [inter_apply, pred0, pred1, pred2, pred3, targ0, targ1, targ2, targ3]
  rfl

end Cert.KernelIdeal.Row

end
-- ==== Proof.LibIdxSums.lean ====
/-
  Finite sums re-indexed, in any commutative additive monoid: a sum over the indices below n read over the indices below m when
  m = n (the extent of a shape's axis against its literal value), and a sum over the indices of a rank-1 shape as the sum over
  its one coordinate.
-/
import Idealize.ShloMosaic.Lib.ValueIdx

namespace Cert.LibIdxSums

open Idealize.ShloMosaic Idealize.ShloMosaic.ValueIdx
open scoped BigOperators

/-- A sum over the indices below n is the sum over the indices below m, carried along m = n. -/
theorem sum_fin_cast {M : Type*} [AddCommMonoid M] {n m : ℕ} (h : m = n) (f : Fin n → M) :
    ∑ k : Fin n, f k = ∑ k : Fin m, f (Fin.cast h k) := by
  subst h; rfl

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

end Cert.LibIdxSums
-- ==== Proof.KernelBlock.lean ====
/-
  What one grid point writes: the two sums of its block.

  The body reduces the lanes of its [1, 160000] box-term and classification-term rows to two numbers and stores them as entries
  (0, 0) and (0, 1) of an otherwise zero [8, 128] tile.  Read at those two entries, the tile is the sum over the block's 160000
  lanes of the specification's box term, respectively classification term, of that lane's entries of the two [5, 160000] blocks
  (row 0 the logit or label, rows 1..4 the box parameters).
-/
import proofs.«111097_j10067403341970_2_alg».proof.Proof.Gen.KernelIdeal.Frame
import proofs.«111097_j10067403341970_2_alg».proof.Proof.KernelRow
import proofs.«111097_j10067403341970_2_alg».proof.Proof.BoxLossSpec
import proofs.«111097_j10067403341970_2_alg».proof.Proof.LibIdxSums
import Idealize.ShloMosaic.PureOps.Ideal.Laws
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx Cert.BoxLoss
open scoped BigOperators

/-- The lane sum of a [1, 160000] row, kept as a [1, 1] array, at its one entry. -/
theorem laneSum_apply (v : FVec Ideal S1x160000 .f32) :
    shapeCast S1x1 (multiReduction .add [1] S1 v 0x00000000#32 reduces_S1x160000_S1 (.inl rfl) rfl) shapeCasts_S1_S1x1 (ix2 (0 : Fin 1) (0 : Fin 1))
      = ∑ k : Fin 160000, v (ix2 (0 : Fin 1) k) := by
  refine (shapeCast_apply _ shapeCasts_S1_S1x1 (ix2 (0 : Fin 1) (0 : Fin 1)) (ix1 (0 : Fin 1)) ?_).trans ?_
  · rw [Shape.rowMajor_val_one, Shape.rowMajor_val_two]; rfl
  refine (Ideal.multiReduction_add_single v 0x00000000#32 reduces_S1x160000_S1 (.inl rfl) rfl (ix1 (0 : Fin 1))).trans ?_
  refine (LibIdxSums.sum_fin_cast (rfl : 160000 = S1x160000.size 1) _).trans ?_
  refine Finset.sum_congr rfl fun (k : Fin 160000) _ => congrArg v (funext fun a => ?_)
  match a with
  | ⟨0, _⟩ => exact Fin.ext rfl
  | ⟨1, _⟩ => exact Fin.ext rfl

variable (v1 v6 v39 v46 v48 : FVec Ideal S1x160000 .f32)

/-- Entry (0, 0) of the stored tile: the lanes' box terms added. -/
theorem tile_box :
    k0_pay1 (F := Ideal) v1 v6 v39 v46 v48 (ix2 (0 : Fin 8) (0 : Fin 128))
      = ∑ k : Fin 160000, (1 - (Ideal.div (v39 (ix2 (0 : Fin 1) k)) (v48 (ix2 (0 : Fin 1) k))
            - Ideal.div (v46 (ix2 (0 : Fin 1) k) - v48 (ix2 (0 : Fin 1) k)) (v46 (ix2 (0 : Fin 1) k)))) := by
  unfold k0_pay1
  dsimp only
  refine (concatenate_pair_apply_left (t := S8x128) (s₁ := S1x128) (s₂ := S7x128) (0 : Fin 2) _ _ concatenates_S1x128_S7x128_S8x128_d0
    (ix2 (0 : Fin 8) (0 : Fin 128)) rfl (ix2 (0 : Fin 1) (0 : Fin 128)) (fun b => ?_)).trans ?_
  · match b with
    | ⟨0, _⟩ => rfl
    | ⟨1, _⟩ => rfl
  refine (concatenate_pair_apply_left (t := S1x128) (s₁ := S1x2) (s₂ := S1x126) (1 : Fin 2) _ _ concatenates_S1x2_S1x126_S1x128_d1
    (ix2 (0 : Fin 1) (0 : Fin 128)) rfl (ix2 (0 : Fin 1) (0 : Fin 2)) (fun b => ?_)).trans ?_
  · match b with
    | ⟨0, _⟩ => rfl
    | ⟨1, _⟩ => rfl
  refine (concatenate_pair_apply_left (t := S1x2) (s₁ := S1x1) (s₂ := S1x1) (1 : Fin 2) _ _ concatenates_S1x1_S1x1_S1x2_d1
    (ix2 (0 : Fin 1) (0 : Fin 2)) rfl (ix2 (0 : Fin 1) (0 : Fin 1)) (fun b => ?_)).trans ?_
  · match b with
    | ⟨0, _⟩ => rfl
    | ⟨1, _⟩ => rfl
  refine (laneSum_apply _).trans ?_
  refine Finset.sum_congr rfl fun k _ => ?_
  show Ideal.ofBits .f32 0x3F800000#32 - _ = _
  rw [ofBits_one_f32]
  rfl

/-- Entry (0, 1) of the stored tile: the lanes' classification terms added. -/
theorem tile_bce :
    k0_pay1 (F := Ideal) v1 v6 v39 v46 v48 (ix2 (0 : Fin 8) (1 : Fin 128))
      = ∑ k : Fin 160000, bceTerm (v1 (ix2 (0 : Fin 1) k)) (v6 (ix2 (0 : Fin 1) k)) := by
  unfold k0_pay1
  dsimp only
  refine (concatenate_pair_apply_left (t := S8x128) (s₁ := S1x128) (s₂ := S7x128) (0 : Fin 2) _ _ concatenates_S1x128_S7x128_S8x128_d0
    (ix2 (0 : Fin 8) (1 : Fin 128)) rfl (ix2 (0 : Fin 1) (1 : Fin 128)) (fun b => ?_)).trans ?_
  · match b with
    | ⟨0, _⟩ => rfl
    | ⟨1, _⟩ => rfl
  refine (concatenate_pair_apply_left (t := S1x128) (s₁ := S1x2) (s₂ := S1x126) (1 : Fin 2) _ _ concatenates_S1x2_S1x126_S1x128_d1
    (ix2 (0 : Fin 1) (1 : Fin 128)) rfl (ix2 (0 : Fin 1) (1 : Fin 2)) (fun b => ?_)).trans ?_
  · match b with
    | ⟨0, _⟩ => rfl
    | ⟨1, _⟩ => rfl
  refine (concatenate_pair_apply_right (t := S1x2) (s₁ := S1x1) (s₂ := S1x1) (1 : Fin 2) _ _ concatenates_S1x1_S1x1_S1x2_d1
    (ix2 (0 : Fin 1) (1 : Fin 2)) rfl rfl (ix2 (0 : Fin 1) (0 : Fin 1)) (fun b hb => ?_) rfl).trans ?_
  · match b with
    | ⟨0, _⟩ => rfl
    | ⟨1, _⟩ => exact absurd rfl hb
  refine (laneSum_apply _).trans ?_
  refine Finset.sum_congr rfl fun k _ => ?_
  show max (v1 (ix2 (0 : Fin 1) k)) (Ideal.ofBits .f32 0x00000000#32) - v1 (ix2 (0 : Fin 1) k) * v6 (ix2 (0 : Fin 1) k)
      + Ideal.log1p (Ideal.exp (Ideal.ofBits .f32 0x00000000#32 - absE (v1 (ix2 (0 : Fin 1) k)))) = _
  rw [Ideal.ofBits_zero_f32, zero_sub]
  rfl

theorem hz : (![0, 0] : Fin 2 → Nat) = fun _ => 0 := funext fun a => by fin_cases a <;> rfl

variable (x : Vec Ideal S5x160000 .f32) (k : Fin 160000)

/-- The body's first load reads row 0 of a block. -/
theorem ld_row0 : View.ld x r0_0 (ix2 (0 : Fin 1) k) = x (ix2 (0 : Fin 5) k) := by
  refine congrArg x (funext fun a => Fin.ext ?_)
  match a with
  | ⟨0, _⟩ => rfl
  | ⟨1, _⟩ => show 0 + 1 * k.val = k.val; omega

/-- Its second load reads rows 1..4. -/
theorem ld_rows (r : Fin 4) (r' : Fin 5) (h : r'.val = 1 + r.val) : View.ld x r0_1 (ix2 r k) = x (ix2 r' k) := by
  refine congrArg x (funext fun a => Fin.ext ?_)
  match a with
  | ⟨0, _⟩ => show 1 + 1 * r.val = r'.val; omega
  | ⟨1, _⟩ => show 0 + 1 * k.val = k.val; omega

variable (x0 x1 : Vec Ideal S5x160000 .f32)

/-- The box term of lane k of a pair of blocks. -/
def laneBox (k : Fin 160000) : EReal :=
  boxTerm (Ideal.logistic (x0 (ix2 (1 : Fin 5) k))) (Ideal.logistic (x0 (ix2 (2 : Fin 5) k)))
    (Ideal.logistic (x0 (ix2 (3 : Fin 5) k))) (Ideal.logistic (x0 (ix2 (4 : Fin 5) k)))
    (x1 (ix2 (1 : Fin 5) k)) (x1 (ix2 (2 : Fin 5) k)) (x1 (ix2 (3 : Fin 5) k)) (x1 (ix2 (4 : Fin 5) k))

/-- The classification term of lane k of a pair of blocks. -/
def laneBce (k : Fin 160000) : EReal := bceTerm (x0 (ix2 (0 : Fin 5) k)) (x1 (ix2 (0 : Fin 5) k))

/-- Entry (0, 0) of what a point leaves in the output's staging buffer: its block's box terms added. -/
theorem out_box : out0_2 (F := Ideal) x0 x1 (ix2 (0 : Fin 8) (0 : Fin 128)) = ∑ k : Fin 160000, laneBox x0 x1 k := by
  unfold out0_2
  rw [View.canon_unit_zero hz, tile_box]
  refine Finset.sum_congr rfl fun k _ => ?_
  rw [Row.inter_apply, Row.hull_apply, Row.union_apply]
  unfold Row.P0 Row.P1 Row.P2 Row.P3
  rw [ld_rows x0 k 0 1 rfl, ld_rows x0 k 1 2 rfl, ld_rows x0 k 2 3 rfl, ld_rows x0 k 3 4 rfl,
    ld_rows x1 k 0 1 rfl, ld_rows x1 k 1 2 rfl, ld_rows x1 k 2 3 rfl, ld_rows x1 k 3 4 rfl]
  rfl

/-- Entry (0, 1): its block's classification terms added. -/
theorem out_bce : out0_2 (F := Ideal) x0 x1 (ix2 (0 : Fin 8) (1 : Fin 128)) = ∑ k : Fin 160000, laneBce x0 x1 k := by
  unfold out0_2
  rw [View.canon_unit_zero hz, tile_bce]
  refine Finset.sum_congr rfl fun k _ => ?_
  unfold k0_pay2 k0_pay4
  rw [shapeCast_self, shapeCast_self, ld_row0 x0 k, ld_row0 x1 k]
  rfl

end Cert.KernelIdeal.Block

end
-- ==== Proof.KernelArray.lean ====
/-
  From blocks to arrays.

  The pallas_call's grid has 25 points.  Point t reads columns 160000 t .. 160000 t + 159999 of the two transposed [5, 4000000]
  arrays (row r of a transposed array is field r of the argument) and writes rows 8 t .. 8 t + 7 of the [200, 128] result.  The
  output blocks of distinct points are disjoint, so after the run row 8 t of the result is row 0 of the tile point t stored;
  and entry (r, j) of an input block at point t is entry (160000 t + j, r) of the argument array.
-/
import proofs.«111097_j10067403341970_2_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.Arr

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The three index maps over the grid: both inputs move along the columns with the point, the output along the rows. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = t.val ∧ win0_2.index t (1 : Fin 2) = 0 :=
  (by decide +kernel : ∀ t : Fin grid0.N, _)

/-- Distinct points write distinct blocks of the result … -/
theorem idx_inj2 : ∀ t t' : Fin cfg0.N, win0_2.index t = win0_2.index t' → t = t' :=
  (by decide +kernel : ∀ t t' : Fin grid0.N, win0_2.index t = win0_2.index t' → t = t')

/-- … which therefore share no index. -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- Block t of the result after the run is what point t wrote back. -/
theorem blocks2 (c : Dev nD) (t : Fin cfg0.N) :
    ((cfg0.win 2).blk t).view.read (Elt Ideal) ((dats m 0 c).arrAt 2 cfg0.N) = (dats m 0 c).flushed 2 t :=
  (dats m 0 c).read_blk_arrAt_eq_flushed 2 disjoint2 cfg0.N t t.isLt (flush0_2 t)

/-- What point t writes back is the tile its body stored. -/
theorem flushed2 (c : Dev nD) (t : Fin cfg0.N) :
    (dats m 0 c).flushed 2 t = (cfg0.win 2).cut (grid0.coords t) (out0_2 (iblk m c 0 t) (iblk m c 1 t)) := by
  show (cfg0.win 2).cut (grid0.coords t) ((dats m 0 c).after 2 t) = _
  rw [after0_2]

/-- Entry (8 t, q) of the result after the run is entry (0, q) of point t's tile. -/
theorem result_row (c : Dev nD) (t : Fin cfg0.N) (q : Fin 128) (i : S200x128.Idx)
    (hi0 : (i 0).val = 8 * t.val) (hi1 : (i 1).val = q.val) :
    ((dats m 0 c).arrAt 2 cfg0.N : S200x128.Idx → EReal) i
      = (out0_2 (iblk m c 0 t) (iblk m c 1 t) : S8x128.Idx → EReal) (ix2 (0 : Fin 8) q) := by
  have h := congrFun (blocks2 m c t) (ix2 (0 : Fin 8) q)
  rw [flushed2, View.read_apply] at h
  obtain ⟨-, -, -, -, e4, e5⟩ := idx_facts t
  have hi : ((cfg0.win 2).blk t).view.emb (ix2 (0 : Fin 8) q) = i := by
    funext a; apply Fin.ext
    match a with
    | ⟨0, _⟩ => show win0_2.index t (0 : Fin 2) * 8 + 1 * 0 = (i 0).val; rw [e4, hi0]; omega
    | ⟨1, _⟩ => show win0_2.index t (1 : Fin 2) * 128 + 1 * q.val = (i 1).val; rw [e5, hi1]; omega
  rw [hi] at h
  exact h

/-- The transposed first argument, as the region finds it. -/
theorem V_v0 (c : Dev nD) : (V m c main_v0 : S5x4000000.Idx → EReal)
    = transpose S5x4000000 [1, 0] (m ((c : Thread nD τ).loc main_arg0) : S4000000x5.Idx → EReal) transposes_S4000000x5_S5x4000000_1_0 := by
  show StableHlo.after hostOps0 (fun b => m (c, b)) (Proc.devRef .tc main_v0) = _
  after_results

/-- The transposed second argument, as the region finds it. -/
theorem V_v1 (c : Dev nD) : (V m c main_v1 : S5x4000000.Idx → EReal)
    = transpose S5x4000000 [1, 0] (m ((c : Thread nD τ).loc main_arg1) : S4000000x5.Idx → EReal) transposes_S4000000x5_S5x4000000_1_0 := by
  show StableHlo.after hostOps0 (fun b => m (c, b)) (Proc.devRef .tc main_v1) = _
  after_results

/-- A transposed array at (r, n) is the array at (n, r). -/
theorem transposed_apply (A : S4000000x5.Idx → EReal) (j : S5x4000000.Idx) (i : S4000000x5.Idx)
    (h0 : (i 0).val = (j 1).val) (h1 : (i 1).val = (j 0).val) :
    transpose S5x4000000 [1, 0] A transposes_S4000000x5_S5x4000000_1_0 j = A i :=
  transpose_apply [1, 0] A transposes_S4000000x5_S5x4000000_1_0 j i (fun b => match b with
    | ⟨0, _⟩ => h1
    | ⟨1, _⟩ => h0)

/-- Entry (r, j) of the first input's block at point t is entry (160000 t + j, r) of the first argument. -/
theorem iblk0_apply (c : Dev nD) (t : Fin cfg0.N) (r : Fin 5) (j : Fin 160000) (i : S4000000x5.Idx)
    (hi0 : (i 0).val = t.val * 160000 + j.val) (hi1 : (i 1).val = r.val) :
    (iblk m c 0 t : S5x160000.Idx → EReal) (ix2 r j) = (m ((c : Thread nD τ).loc main_arg0) : S4000000x5.Idx → EReal) i := by
  obtain ⟨e0, e1, -, -, -, -⟩ := idx_facts t
  unfold iblk
  rw [View.read_apply]
  show V m c main_v0 _ = _
  rw [V_v0]
  refine transposed_apply _ _ i ?_ ?_
  · show (i 0).val = win0_0.index t (1 : Fin 2) * 160000 + 1 * j.val; rw [e1, hi0]; omega
  · show (i 1).val = win0_0.index t (0 : Fin 2) * 5 + 1 * r.val; rw [e0, hi1]; omega

/-- The same for the second input and the second argument. -/
theorem iblk1_apply (c : Dev nD) (t : Fin cfg0.N) (r : Fin 5) (j : Fin 160000) (i : S4000000x5.Idx)
    (hi0 : (i 0).val = t.val * 160000 + j.val) (hi1 : (i 1).val = r.val) :
    (iblk m c 1 t : S5x160000.Idx → EReal) (ix2 r j) = (m ((c : Thread nD τ).loc main_arg1) : S4000000x5.Idx → EReal) i := by
  obtain ⟨-, -, e2, e3, -, -⟩ := idx_facts t
  unfold iblk
  rw [View.read_apply]
  show V m c main_v1 _ = _
  rw [V_v1]
  refine transposed_apply _ _ i ?_ ?_
  · show (i 0).val = win0_1.index t (1 : Fin 2) * 160000 + 1 * j.val; rw [e3, hi0]; omega
  · show (i 1).val = win0_1.index t (0 : Fin 2) * 5 + 1 * r.val; rw [e2, hi1]; omega

end Cert.KernelIdeal.Arr

end
-- ==== Proof.KernelTail.lean ====
/-
  The host lines after the pallas_call, as one function of its [200, 128] result.

  They view the result as [25, 8, 128], keep entries (t, 0, 0) and (t, 0, 1) of every tile t as a [25, 2] array, add its 25 rows
  (from the initial value 0) into two totals, divide each total by the row count, and add the second quotient, weighted, to the
  first.  Read at its one index, that is the specification's combination of the two totals, each the sum over the 25 tiles of an
  entry of row 8 t of the result.
-/
import proofs.«111097_j10067403341970_2_alg».proof.Proof.Gen.KernelIdeal.Launch
import proofs.«111097_j10067403341970_2_alg».proof.Proof.BoxLossSpec
import proofs.«111097_j10067403341970_2_alg».proof.Proof.LibIdxSums
import Idealize.ShloMosaic.PureOps.Ideal.Laws
import Idealize.ShloMosaic.Lib.Pipeline.Value
import Idealize.ShloMosaic.Lib.ValueIdx

noncomputable section

namespace Cert.KernelIdeal.Tail

open Cert.KernelIdeal Cert.KernelIdeal.Gen Idealize.ShloMosaic Idealize.ShloMosaic.ValueIdx Cert.BoxLoss
open scoped BigOperators

variable (Y : S200x128.Idx → EReal)

/-- Entries (0, 0) and (0, 1) of the 25 tiles, as a [25, 2] array. -/
def partials : S25x2.Idx → EReal :=
  shapeCast S25x2 (extractStridedSlice S25x1x2 ![0, 0, 0] (shapeCast S25x8x128 Y shapeCasts_S200x128_S25x8x128) slices_S25x8x128_S25x1x2_0_0_0)
    shapeCasts_S25x1x2_S25x2

/-- Its rows added. -/
def totals : S2.Idx → EReal :=
  Host.reduceAdd (F := Ideal) (partials Y) (constant (F := Ideal) S_ .f32 0x00000000#32) reducesTo_S25x2_S2_d0 h_S_

/-- The result of the host lines after the region. -/
def tail : S_.Idx → EReal :=
  addf (mulf (constant (F := Ideal) S_ .f32 0x3E4CCCCD#32)
      (Host.divf (F := Ideal) (shapeCast S_ (extractStridedSlice S1 ![1] (totals Y) slices_S2_S1_1) shapeCasts_S1_S_)
        (constant (F := Ideal) S_ .f32 0x4A742400#32)))
    (Host.divf (F := Ideal) (shapeCast S_ (extractStridedSlice S1 ![0] (totals Y) slices_S2_S1_0) shapeCasts_S1_S_)
      (constant (F := Ideal) S_ .f32 0x4A742400#32))

/-- Entry (t, q) of the kept array is entry (8 t, q) of the result. -/
theorem partials_apply (t : Fin 25) (q : Fin 2) (i : S200x128.Idx) (h0 : (i 0).val = 8 * t.val) (h1 : (i 1).val = q.val) :
    partials Y (ix2 t q) = Y i := by
  unfold partials
  refine (shapeCast_apply _ shapeCasts_S25x1x2_S25x2 (ix2 t q) (ix3 t (0 : Fin 1) q) ?_).trans ?_
  · rw [Shape.rowMajor_val_three, Shape.rowMajor_val_two]
    show (t.val * 1 + 0) * 2 + q.val = t.val * 2 + q.val
    omega
  refine (extractStridedSlice_apply ![0, 0, 0] _ slices_S25x8x128_S25x1x2_0_0_0 (ix3 t (0 : Fin 1) q)
    (ix3 t (0 : Fin 8) (⟨q.val, by have := q.isLt; omega⟩ : Fin 128)) (fun a => ?_)).trans ?_
  · match a with
    | ⟨0, _⟩ => show t.val = 0 + t.val; omega
    | ⟨1, _⟩ => rfl
    | ⟨2, _⟩ => show q.val = 0 + q.val; omega
  refine shapeCast_apply Y shapeCasts_S200x128_S25x8x128 _ i ?_
  rw [Shape.rowMajor_val_three, Shape.rowMajor_val_two]
  show (i 0).val * 128 + (i 1).val = (t.val * 8 + 0) * 128 + q.val
  omega

/-- The rows' sum as a reduction over one axis. -/
theorem reduces_rows : S25x2.Reduces [0] S2 := by decide

/-- Total q is the sum over the 25 tiles of entry (t, q). -/
theorem totals_apply (q : Fin 2) : totals Y (ix1 q) = ∑ t : Fin 25, partials Y (ix2 t q) := by
  unfold totals
  refine (Ideal.hostReduceAdd_single reducesTo_S25x2_S2_d0 reduces_rows (partials Y) _ (ix1 q)).trans ?_
  refine (congrArg (· + _) Ideal.ofBits_zero_f32).trans ((zero_add _).trans ?_)
  refine (LibIdxSums.sum_fin_cast (rfl : 25 = S25x2.size 0) _).trans ?_
  refine Finset.sum_congr rfl fun (t : Fin 25) _ => congrArg (partials Y) (funext fun a => ?_)
  match a with
  | ⟨0, _⟩ => exact Fin.ext rfl
  | ⟨1, _⟩ => exact Fin.ext rfl

/-- A total picked out of the pair and viewed as a scalar. -/
theorem pick_apply (Z : S2.Idx → EReal) (q : Fin 2) (o : Nat) (ho : o = q.val) (h : S2.Slices ![o] S1) :
    shapeCast S_ (extractStridedSlice S1 ![o] Z h) shapeCasts_S1_S_ ix0 = Z (ix1 q) := by
  subst ho
  refine (shapeCast_apply _ shapeCasts_S1_S_ ix0 (ix1 (0 : Fin 1)) ?_).trans ?_
  · rw [Shape.rowMajor_val_one]
    exact (Shape.rowMajorPi_zero _ _).symm
  refine extractStridedSlice_apply ![q.val] Z h (ix1 (0 : Fin 1)) (ix1 q) (fun a => ?_)
  match a with
  | ⟨0, _⟩ => show q.val = q.val + 0; omega

/-- The host lines' result is the specification's combination of the two totals. -/
theorem tail_apply : tail Y ix0 = combine (totals Y (ix1 (0 : Fin 2))) (totals Y (ix1 (1 : Fin 2))) := by
  unfold tail
  show Ideal.ofBits .f32 0x3E4CCCCD#32
        * Ideal.div (shapeCast S_ (extractStridedSlice S1 ![1] (totals Y) slices_S2_S1_1) shapeCasts_S1_S_ ix0) (Ideal.ofBits .f32 0x4A742400#32)
      + Ideal.div (shapeCast S_ (extractStridedSlice S1 ![0] (totals Y) slices_S2_S1_0) shapeCasts_S1_S_ ix0) (Ideal.ofBits .f32 0x4A742400#32) = _
  rw [pick_apply (totals Y) (1 : Fin 2) 1 rfl slices_S2_S1_1, pick_apply (totals Y) (0 : Fin 2) 0 rfl slices_S2_S1_0]
  rfl

end Cert.KernelIdeal.Tail

end
-- ==== Proof.LibSums.lean ====
/-
  Finite sums regrouped, in any commutative additive monoid (the extended reals are one, though multiplication there does not distribute):
  a sum over an index below a · b is the double sum over quotient and remainder; a sum over an index below n whose terms vanish outside a
  window [o, o + k) is the sum over the window; and the same with a factor carried along, when only the other factor vanishes outside the window.
-/
import Idealize.ShloMosaic.Lib.ValueIdx

namespace Cert.LibSums

open scoped BigOperators

/-- Quotient i below a and remainder j below b give an index below a · b. -/
theorem lt_mul_of_fin {a b : ℕ} (i : Fin a) (j : Fin b) : i.val * b + j.val < a * b := by
  have hi := i.isLt
  have hj := j.isLt
  calc i.val * b + j.val < i.val * b + b := by omega
    _ = (i.val + 1) * b := by ring
    _ ≤ a * b := Nat.mul_le_mul_right b hi

/-- A sum over the indices below a · b, by quotient and remainder. -/
theorem sum_fin_mul {M : Type*} [AddCommMonoid M] (a b : ℕ) (f : Fin (a * b) → M) :
    ∑ k : Fin (a * b), f k = ∑ i : Fin a, ∑ j : Fin b, f ⟨i.val * b + j.val, lt_mul_of_fin i j⟩ :=
  calc ∑ k : Fin (a * b), f k = ∑ p : Fin a × Fin b, f (finProdFinEquiv p) := (Equiv.sum_comp finProdFinEquiv f).symm
    _ = ∑ i : Fin a, ∑ j : Fin b, f (finProdFinEquiv (i, j)) := Fintype.sum_prod_type _
    _ = _ := Finset.sum_congr rfl fun i _ => Finset.sum_congr rfl fun j _ =>
        congrArg f (Fin.ext (by simp only [finProdFinEquiv_apply_val]; ring))

/-- The same for an extent n given as a literal with n = a · b. -/
theorem sum_fin_of_eq_mul {M : Type*} [AddCommMonoid M] {n : ℕ} (a b : ℕ) (h : n = a * b) (f : Fin n → M) :
    ∑ k : Fin n, f k = ∑ i : Fin a, ∑ j : Fin b, f ⟨i.val * b + j.val, h ▸ lt_mul_of_fin i j⟩ := by
  subst h
  exact sum_fin_mul a b f

/-- Terms that vanish outside the window [o, o + k) of the indices below n: the sum is the window's. -/
theorem sum_window {M : Type*} [AddCommMonoid M] {n : ℕ} (o k : ℕ) (hok : o + k ≤ n) (F : Fin k → M) :
    ∑ i : Fin n, (if h : o ≤ i.val ∧ i.val < o + k then F ⟨i.val - o, by omega⟩ else 0) = ∑ d : Fin k, F d := by
  classical
  have hinj : Function.Injective (fun d : Fin k => (⟨o + d.val, by omega⟩ : Fin n)) := fun d d' h =>
    Fin.ext (by have := congrArg Fin.val h; simp only at this; omega)
  rw [← Finset.sum_subset (Finset.subset_univ (Finset.univ.image fun d : Fin k => (⟨o + d.val, by omega⟩ : Fin n)))]
  · rw [Finset.sum_image (fun d _ d' _ h => hinj h)]
    refine Finset.sum_congr rfl fun d _ => ?_
    have h : o ≤ o + d.val ∧ o + d.val < o + k := ⟨by omega, by omega⟩
    rw [dif_pos h]
    exact congrArg F (Fin.ext (by simp))
  · intro i _ hi
    rw [dif_neg]
    intro h
    exact hi (Finset.mem_image.mpr ⟨⟨i.val - o, by omega⟩, Finset.mem_univ _, Fin.ext (by simp only; omega)⟩)

/-- A product whose second factor vanishes outside the window: the sum over the window, the first factor read there. -/
theorem sum_mul_window {M : Type*} [AddCommMonoid M] [Mul M] (hmz : ∀ a : M, a * 0 = 0) {n : ℕ} (o k : ℕ) (hok : o + k ≤ n)
    (x : Fin n → M) (w : Fin k → M) :
    ∑ i : Fin n, x i * (if h : o ≤ i.val ∧ i.val < o + k then w ⟨i.val - o, by omega⟩ else 0)
      = ∑ d : Fin k, x ⟨o + d.val, by omega⟩ * w d := by
  rw [← sum_window o k hok (fun d => x ⟨o + d.val, by omega⟩ * w d)]
  refine Finset.sum_congr rfl fun i _ => ?_
  by_cases h : o ≤ i.val ∧ i.val < o + k
  · rw [dif_pos h, dif_pos h]
    exact congrArg (· * w ⟨i.val - o, by omega⟩) (congrArg x (Fin.ext (by simp only; omega)))
  · rw [dif_neg h, dif_neg h, hmz]

end Cert.LibSums
-- ==== Proof.KernelValue.lean ====
/-
  The kernel's program computes the specification's loss.

  After the run, row 8 t of the pallas_call's result holds, in its entries 0 and 1, the sums over block t's 160000 lanes of the
  box terms and of the classification terms; lane j of block t is row 160000 t + j of the arguments.  The host lines after the
  region add those entries over the 25 tiles and combine the two totals.  A sum over the 4000000 rows is the sum over the 25
  blocks of the sums over their 160000 lanes, so the program's result is the loss of the two argument arrays.
-/
import proofs.«111097_j10067403341970_2_alg».proof.Proof.Gen.KernelIdeal.Frame
import proofs.«111097_j10067403341970_2_alg».proof.Proof.KernelBlock
import proofs.«111097_j10067403341970_2_alg».proof.Proof.KernelArray
import proofs.«111097_j10067403341970_2_alg».proof.Proof.KernelTail
import proofs.«111097_j10067403341970_2_alg».proof.Proof.BoxLossSpec
import proofs.«111097_j10067403341970_2_alg».proof.Proof.LibSums
import Idealize.ShloMosaic.Lib.StableHlo.Run

noncomputable section

namespace Cert.KernelIdeal.Val

open Cert.KernelIdeal Cert.KernelIdeal.Gen Idealize.ShloMosaic Idealize.ShloMosaic.TcCoe Idealize.SL.Sem Idealize.ShloMosaic.ValueIdx Cert.BoxLoss
open Idealize.ShloMosaic.Pipeline (Dat)
open scoped BigOperators

variable (m : (ℓ : Loc nD τ sig) → Buf (Elt Ideal) ℓ) (ρ : Dev nD → PrngReg)

/-- The two argument arrays on core c. -/
abbrev argA (c : Dev nD) : Rows.Idx → EReal := m ((c : Thread nD τ).loc main_arg0)
abbrev argB (c : Dev nD) : Rows.Idx → EReal := m ((c : Thread nD τ).loc main_arg1)

/-- A tile number below 25 as a grid point. -/
def pt (t : Fin 25) : Fin cfg0.N := ⟨t.val, by rw [show cfg0.N = 25 from N_0]; exact t.isLt⟩

/-- Row t * 160000 + j, the row lane j of block t holds. -/
def rowOf (t : Fin 25) (j : Fin 160000) : Fin 4000000 :=
  ⟨t.val * 160000 + j.val, by have := t.isLt; have := j.isLt; omega⟩

/-- The rows are 25 blocks of 160000. -/
theorem rows_eq : (4000000 : ℕ) = 25 * 160000 := by norm_num

/-- Lane j of block t contributes row t * 160000 + j's box term … -/
theorem laneBox_eq (c : Dev nD) (t : Fin 25) (j : Fin 160000) :
    Block.laneBox (iblk m c 0 (pt t)) (iblk m c 1 (pt t)) j = rowBox (argA m c) (argB m c) (rowOf t j) := by
  unfold Block.laneBox rowBox
  rw [Arr.iblk0_apply m c (pt t) 1 j (ix2 (rowOf t j) (1 : Fin 5)) rfl rfl, Arr.iblk0_apply m c (pt t) 2 j (ix2 (rowOf t j) (2 : Fin 5)) rfl rfl,
    Arr.iblk0_apply m c (pt t) 3 j (ix2 (rowOf t j) (3 : Fin 5)) rfl rfl, Arr.iblk0_apply m c (pt t) 4 j (ix2 (rowOf t j) (4 : Fin 5)) rfl rfl,
    Arr.iblk1_apply m c (pt t) 1 j (ix2 (rowOf t j) (1 : Fin 5)) rfl rfl, Arr.iblk1_apply m c (pt t) 2 j (ix2 (rowOf t j) (2 : Fin 5)) rfl rfl,
    Arr.iblk1_apply m c (pt t) 3 j (ix2 (rowOf t j) (3 : Fin 5)) rfl rfl, Arr.iblk1_apply m c (pt t) 4 j (ix2 (rowOf t j) (4 : Fin 5)) rfl rfl]

/-- … and its classification term. -/
theorem laneBce_eq (c : Dev nD) (t : Fin 25) (j : Fin 160000) :
    Block.laneBce (iblk m c 0 (pt t)) (iblk m c 1 (pt t)) j = rowBce (argA m c) (argB m c) (rowOf t j) := by
  unfold Block.laneBce rowBce
  rw [Arr.iblk0_apply m c (pt t) 0 j (ix2 (rowOf t j) (0 : Fin 5)) rfl rfl, Arr.iblk1_apply m c (pt t) 0 j (ix2 (rowOf t j) (0 : Fin 5)) rfl rfl]

/-- A sum over the 4000000 rows, block by block. -/
theorem sum_rows (f : Fin 4000000 → EReal) : ∑ n : Fin 4000000, f n = ∑ t : Fin 25, ∑ j : Fin 160000, f (rowOf t j) :=
  LibSums.sum_fin_of_eq_mul 25 160000 rows_eq f

/-- The result array after the run, on core c. -/
abbrev resultArr (c : Dev nD) : S200x128.Idx → EReal := (dats m 0 c).arrAt 2 cfg0.N

/-- The first total is the sum of all rows' box terms … -/
theorem total_box (c : Dev nD) :
    Tail.totals (resultArr m c) (ix1 (0 : Fin 2)) = ∑ n : Fin 4000000, rowBox (argA m c) (argB m c) n := by
  rw [Tail.totals_apply, sum_rows]
  refine Finset.sum_congr rfl fun t _ => ?_
  rw [Tail.partials_apply (resultArr m c) t 0 (ix2 (⟨8 * t.val, by have := t.isLt; omega⟩ : Fin 200) (0 : Fin 128)) rfl rfl]
  have h1 : resultArr m c (ix2 (⟨8 * t.val, by have := t.isLt; omega⟩ : Fin 200) (0 : Fin 128))
      = ∑ k : Fin 160000, Block.laneBox (iblk m c 0 (pt t)) (iblk m c 1 (pt t)) k :=
    (Arr.result_row m c (pt t) (0 : Fin 128) _ rfl rfl).trans (Block.out_box _ _)
  rw [h1]
  exact Finset.sum_congr rfl fun j _ => laneBox_eq m c t j

/-- … and the second the sum of all rows' classification terms. -/
theorem total_bce (c : Dev nD) :
    Tail.totals (resultArr m c) (ix1 (1 : Fin 2)) = ∑ n : Fin 4000000, rowBce (argA m c) (argB m c) n := by
  rw [Tail.totals_apply, sum_rows]
  refine Finset.sum_congr rfl fun t _ => ?_
  rw [Tail.partials_apply (resultArr m c) t 1 (ix2 (⟨8 * t.val, by have := t.isLt; omega⟩ : Fin 200) (1 : Fin 128)) rfl rfl]
  have h1 : resultArr m c (ix2 (⟨8 * t.val, by have := t.isLt; omega⟩ : Fin 200) (1 : Fin 128))
      = ∑ k : Fin 160000, Block.laneBce (iblk m c 0 (pt t)) (iblk m c 1 (pt t)) k :=
    (Arr.result_row m c (pt t) (1 : Fin 128) _ rfl rfl).trans (Block.out_bce _ _)
  rw [h1]
  exact Finset.sum_congr rfl fun j _ => laneBce_eq m c t j

/-- What the host lines after the region leave in the program's result buffer. -/
theorem tail_eq (c : Dev nD) :
    (Pipeline.afterTail₀ cfgs (dats m) 0 (V0 m) [hostOps1] c main_v14 : S_.Idx → EReal) = Tail.tail (resultArr m c) := by
  unfold Pipeline.afterTail₀
  show StableHlo.after hostOps1 _ (Proc.devRef .tc main_v14) = _
  after_results
  rw [Pipeline.withArrays_arr spec0 launch0.win.arr_inj c _ _ 2]
  rfl

/-- The program's result is the loss of its arguments. -/
theorem result_eq (c : Dev nD) :
    (Pipeline.afterTail₀ cfgs (dats m) 0 (V0 m) [hostOps1] c main_v14 : S_.Idx → EReal) = fun _ => loss (argA m c) (argB m c) := by
  rw [tail_eq]
  funext j
  rw [eq_ix0 j, Tail.tail_apply, total_box, total_bce]
  rfl

/-- The run, read: the result buffer at the loss, the arguments unchanged. -/
theorem run : θ_run defs (onTc (τ := τ) (main (F := Ideal))) ⟨m, fun _ => 0, ρ⟩ fun r => ∀ c : Dev nD,
      r.2.mem ((c : Thread nD τ).loc main_v14) = (fun _ => loss (argA m c) (argB m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v14 (Pipeline.mem_restRefs_of main_v14 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Val

end
-- ==== Proof.RefValue.lean ====
/-
  The reference computes the specification's loss.

  Its program slices the two [4000000, 5] arrays into columns, applies the logistic function (spelt 1 / (1 + exp (-x))) to the
  prediction's columns 1..4, computes the box term and the classification term of every row, adds each over the 4000000 rows
  (from the initial value 0), divides both sums by the row count, and adds the weighted quotients.  Read one operation at a
  time, its result at its one index is the specification's loss of the two arrays.
-/
import proofs.«111097_j10067403341970_2_alg».proof.Proof.Gen.ReferenceIdeal.Read
import proofs.«111097_j10067403341970_2_alg».proof.Proof.BoxLossSpec
import proofs.«111097_j10067403341970_2_alg».proof.Proof.LibIdxSums
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.BoxLoss
open scoped BigOperators

variable (A B : S4000000x5.Idx → EReal) (n : Fin 4000000)

/-- Column c of the prediction's four box columns after the host's logistic expression, at row n: the logistic function of
    field c + 1. -/
theorem sig_apply (c : Fin 4) (c' : Fin 5) (h : c'.val = 1 + c.val) :
    val_main_v6 (F := Ideal) A (ix2 n c) = Ideal.logistic (A (ix2 n c')) := by
  rw [val_main_v6_apply, val_main_v5_apply, val_main_cst_0_apply, val_main_v4_apply, val_main_v3_apply, val_main_cst_apply,
    val_main_v2_apply, val_main_v1_apply, val_main_v0_apply]
  have e : idx_main_v0 (ix2 n c) = ix2 n c' := funext fun a => Fin.ext (by
    match a with
    | ⟨0, _⟩ => rfl
    | ⟨1, _⟩ => show 1 + c.val = c'.val; omega)
  rw [e]
  show Ideal.div (Ideal.ofBits .f32 0x3F800000#32) (Ideal.ofBits .f32 0x3F800000#32 + Ideal.exp (-(A (ix2 n c')))) = _
  rw [ofBits_one_f32]
  rfl

/-- Column c of the target's four box columns at row n: field c + 1. -/
theorem targ_apply (c : Fin 4) (c' : Fin 5) (h : c'.val = 1 + c.val) :
    val_main_v7 (F := Ideal) B (ix2 n c) = B (ix2 n c') := by
  rw [val_main_v7_apply]
  exact congrArg B (funext fun a => Fin.ext (by
    match a with
    | ⟨0, _⟩ => rfl
    | ⟨1, _⟩ => show 1 + c.val = c'.val; omega))

/-- The four predicted corners of row n. -/
theorem p0_apply : val_main_v9 (F := Ideal) A (ix1 n) = Ideal.logistic (A (ix2 n (1 : Fin 5))) := by
  rw [val_main_v9_apply, val_main_v8_apply]
  refine Eq.trans (congrArg _ (funext fun a => Fin.ext ?_)) (sig_apply A n 0 1 rfl)
  match a with
  | ⟨0, _⟩ => exact Nat.div_one _
  | ⟨1, _⟩ => rfl
theorem p1_apply : val_main_v11 (F := Ideal) A (ix1 n) = Ideal.logistic (A (ix2 n (2 : Fin 5))) := by
  rw [val_main_v11_apply, val_main_v10_apply]
  refine Eq.trans (congrArg _ (funext fun a => Fin.ext ?_)) (sig_apply A n 1 2 rfl)
  match a with
  | ⟨0, _⟩ => exact Nat.div_one _
  | ⟨1, _⟩ => rfl
theorem p2_apply : val_main_v13 (F := Ideal) A (ix1 n) = Ideal.logistic (A (ix2 n (3 : Fin 5))) := by
  rw [val_main_v13_apply, val_main_v12_apply]
  refine Eq.trans (congrArg _ (funext fun a => Fin.ext ?_)) (sig_apply A n 2 3 rfl)
  match a with
  | ⟨0, _⟩ => exact Nat.div_one _
  | ⟨1, _⟩ => rfl
theorem p3_apply : val_main_v15 (F := Ideal) A (ix1 n) = Ideal.logistic (A (ix2 n (4 : Fin 5))) := by
  rw [val_main_v15_apply, val_main_v14_apply]
  refine Eq.trans (congrArg _ (funext fun a => Fin.ext ?_)) (sig_apply A n 3 4 rfl)
  match a with
  | ⟨0, _⟩ => exact Nat.div_one _
  | ⟨1, _⟩ => rfl

/-- The four target corners of row n. -/
theorem t0_apply : val_main_v17 (F := Ideal) B (ix1 n) = B (ix2 n (1 : Fin 5)) := by
  rw [val_main_v17_apply, val_main_v16_apply]
  refine Eq.trans (congrArg _ (funext fun a => Fin.ext ?_)) (targ_apply B n 0 1 rfl)
  match a with
  | ⟨0, _⟩ => exact Nat.div_one _
  | ⟨1, _⟩ => rfl
theorem t1_apply : val_main_v19 (F := Ideal) B (ix1 n) = B (ix2 n (2 : Fin 5)) := by
  rw [val_main_v19_apply, val_main_v18_apply]
  refine Eq.trans (congrArg _ (funext fun a => Fin.ext ?_)) (targ_apply B n 1 2 rfl)
  match a with
  | ⟨0, _⟩ => exact Nat.div_one _
  | ⟨1, _⟩ => rfl
theorem t2_apply : val_main_v21 (F := Ideal) B (ix1 n) = B (ix2 n (3 : Fin 5)) := by
  rw [val_main_v21_apply, val_main_v20_apply]
  refine Eq.trans (congrArg _ (funext fun a => Fin.ext ?_)) (targ_apply B n 2 3 rfl)
  match a with
  | ⟨0, _⟩ => exact Nat.div_one _
  | ⟨1, _⟩ => rfl
theorem t3_apply : val_main_v23 (F := Ideal) B (ix1 n) = B (ix2 n (4 : Fin 5)) := by
  rw [val_main_v23_apply, val_main_v22_apply]
  refine Eq.trans (congrArg _ (funext fun a => Fin.ext ?_)) (targ_apply B n 3 4 rfl)
  match a with
  | ⟨0, _⟩ => exact Nat.div_one _
  | ⟨1, _⟩ => rfl

/-- The logit and the label of row n. -/
theorem logit_apply : val_main_v64 (F := Ideal) A (ix1 n) = A (ix2 n (0 : Fin 5)) := by
  rw [val_main_v64_apply, val_main_v63_apply]
  refine congrArg A (funext fun a => Fin.ext ?_)
  match a with
  | ⟨0, _⟩ => exact Nat.div_one _
  | ⟨1, _⟩ => rfl
theorem label_apply : val_main_v66 (F := Ideal) B (ix1 n) = B (ix2 n (0 : Fin 5)) := by
  rw [val_main_v66_apply, val_main_v65_apply]
  refine congrArg B (funext fun a => Fin.ext ?_)
  match a with
  | ⟨0, _⟩ => exact Nat.div_one _
  | ⟨1, _⟩ => rfl

/-- The reference's box term of row n. -/
theorem box_apply : val_main_v60 (F := Ideal) A B (ix1 n) = rowBox A B n := by
  simp only [val_main_v60_apply, val_main_v59_apply, val_main_cst_3_apply, val_main_v58_apply, val_main_v55_apply, val_main_v57_apply, val_main_v56_apply, val_main_v45_apply, val_main_v44_apply, val_main_v43_apply, val_main_cst_1_apply, val_main_call0_v1_apply, val_main_call0_v0_apply, val_main_cst_2_apply, val_main_v54_apply, val_main_v53_apply, val_main_v52_apply, val_main_v50_apply, val_main_v51_apply, val_main_v42_apply, val_main_v40_apply, val_main_v41_apply, val_main_v31_apply, val_main_v28_apply, val_main_v29_apply, val_main_v30_apply, val_main_v25_apply, val_main_v27_apply, val_main_v24_apply, val_main_v26_apply, val_main_v36_apply, val_main_v37_apply, val_main_v38_apply, val_main_v39_apply, val_main_v46_apply, val_main_v47_apply, val_main_v48_apply, val_main_v49_apply, val_main_v32_apply, val_main_v33_apply, val_main_v34_apply, val_main_v35_apply]
  rw [p0_apply, p1_apply, p2_apply, p3_apply, t0_apply, t1_apply, t2_apply, t3_apply]
  simp only [Ideal.ofBits_def, Ideal.ofBits_zero_f32, ofBits_one_f32]
  rfl

/-- The reference's classification term of row n. -/
theorem bce_apply : val_main_v75 (F := Ideal) A B (ix1 n) = rowBce A B n := by
  simp only [val_main_v75_apply, val_main_v74_apply, val_main_v73_apply, val_main_v72_apply, val_main_v71_apply, val_main_v70_apply, val_main_v69_apply, val_main_v68_apply, val_main_v67_apply, val_main_cst_6_apply]
  rw [logit_apply, label_apply]
  simp only [Ideal.ofBits_def, Ideal.ofBits_zero_f32]
  rfl

/-- The reference's result is the loss. -/
theorem result_eq : val_main_v79 (F := Ideal) A B ix0 = loss A B := by
  rw [val_main_v79_apply, val_main_v78_apply, val_main_cst_9_apply, val_main_v77_apply, val_main_cst_8_apply, val_main_v76_apply,
    val_main_cst_7_apply, val_main_v62_apply, val_main_cst_5_apply, val_main_v61_apply, val_main_cst_4_apply,
    LibIdxSums.sum_idx1, LibIdxSums.sum_idx1]
  simp only [box_apply, bce_apply, Ideal.ofBits_def, Ideal.ofBits_zero_f32, zero_add]
  rfl

end Cert.ReferenceIdeal.RefValue

end
-- ==== Proof.lean ====
/-
  A box-regression loss over 4000000 rows, computed two ways: by a pallas_call that streams the transposed arguments in 25
  lane-dense blocks and leaves per-block partial sums for the host to add, and by plain array operations over the rows.

  Over the extended reals both are the same function of the two argument arrays (Proof/BoxLossSpec.lean): the weighted mean of the
  rows' classification terms plus the mean of the rows' box terms.  The kernel's logistic operation is the expression
  1 / (1 + exp (-x)) the reference spells out, its 0 - |l| the reference's -|l|, and a sum over all rows is the sum over the 25
  blocks of the sums over their 160000 lanes: addition on the extended reals is commutative and associative, so the regrouping
  needs no finiteness and the precondition is never opened.  The three frames are the generated ones (the reference's is its
  generated run with the result dropped), and the ideal pass rewrote nothing, so the idealization claim is trivial.
-/
import proofs.«111097_j10067403341970_2_alg».proof.Defs
import proofs.«111097_j10067403341970_2_alg».proof.Proof.Gen.Kernel
import proofs.«111097_j10067403341970_2_alg».proof.Proof.Gen.Kernel.Skeleton
import proofs.«111097_j10067403341970_2_alg».proof.Proof.Gen.Kernel.Launch
import proofs.«111097_j10067403341970_2_alg».proof.Proof.Gen.Kernel.Points
import proofs.«111097_j10067403341970_2_alg».proof.Proof.Gen.Kernel.Frame
import proofs.«111097_j10067403341970_2_alg».proof.Proof.Gen.KernelIdeal
import proofs.«111097_j10067403341970_2_alg».proof.Proof.Gen.KernelIdeal.Skeleton
import proofs.«111097_j10067403341970_2_alg».proof.Proof.Gen.KernelIdeal.Launch
import proofs.«111097_j10067403341970_2_alg».proof.Proof.Gen.KernelIdeal.Points
import proofs.«111097_j10067403341970_2_alg».proof.Proof.Gen.KernelIdeal.Frame
import proofs.«111097_j10067403341970_2_alg».proof.Proof.Gen.ReferenceIdeal
import proofs.«111097_j10067403341970_2_alg».proof.Proof.Gen.ReferenceIdeal.Run
import proofs.«111097_j10067403341970_2_alg».proof.Proof.Gen.ReferenceIdeal.Read
import proofs.«111097_j10067403341970_2_alg».proof.Proof.Gen.Pre_finite_inputs
import proofs.«111097_j10067403341970_2_alg».proof.Proof.KernelValue
import proofs.«111097_j10067403341970_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with their result buffer at the loss of the argument arrays, which agree. -/
theorem algebraic : Cert.algebraic_KernelIdeal_ReferenceIdeal := by
  intro m ρ m' ρ' _ hagree
  refine ⟨fun c => fun _ => Cert.BoxLoss.loss (Cert.KernelIdeal.Val.argA m c) (Cert.KernelIdeal.Val.argB m c),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v79_eq, (hagree c).1, (hagree c).2]
  funext j
  rw [Idealize.ShloMosaic.ValueIdx.eq_ix0 j]
  exact Cert.ReferenceIdeal.RefValue.result_eq _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
